-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x768 : Shape := ⟨3, ![128, 256, 768]⟩
abbrev S128x64 : Shape := ⟨2, ![128, 64]⟩
abbrev S128 : Shape := ⟨1, ![128]⟩
abbrev S_ : Shape := ⟨0, ![]⟩

class Facts : Prop where
  bcast_S_S128x256x768 : S_.BroadcastsInDim S128x256x768 (![] : Fin 0 → Fin S128x256x768.rank)
  reducesTo_S128x256x768_S_d0_1_2 : S128x256x768.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x256x768 .f32) (main_arg1 : IVec S128x64 32) (main_arg2 : IVec S128x64 32) (main_arg3 : IVec S128x64 32) (main_arg4 : FVec F S128 .f32) (main_arg5 : FVec F S128 .f32) : IVec S_ 1 :=
  let main_v0 : FVec F S128x256x768 .f32 := Host.absf main_arg0
  let main_cst : FVec F S_ .f32 := constant S_ .f32 0x7F800000#32
  let main_v1 : FVec F S128x256x768 .f32 := broadcastInDim S128x256x768 ![] bcast_S_S128x256x768 main_cst
  let main_v2 : IVec S128x256x768 1 := cmpf .olt main_v0 main_v1
  let main_c : IVec S_ 1 := constantI S_ 1 1#1
  let main_v3 : IVec S_ 1 := (fun x v => Host.reduce IntOp.andi x v reducesTo_S128x256x768_S_d0_1_2 h_S_) main_v2 main_c
  let main_v4 : FVec F S128 .f32 := Host.absf main_arg4
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S128x256x768 : Shape := ⟨3, ![128, 256, 768]⟩
abbrev S128x64 : Shape := ⟨2, ![128, 64]⟩
abbrev S128 : Shape := ⟨1, ![128]⟩
abbrev S256 : Shape := ⟨1, ![256]⟩
abbrev S1x256x1 : Shape := ⟨3, ![1, 256, 1]⟩
abbrev S_ : Shape := ⟨0, ![]⟩
abbrev S128x1x64 : Shape := ⟨3, ![128, 1, 64]⟩
abbrev S128x256x64 : Shape := ⟨3, ![128, 256, 64]⟩
abbrev S128x256 : Shape := ⟨2, ![128, 256]⟩
abbrev S1x256 : Shape := ⟨2, ![1, 256]⟩
abbrev S128x1 : Shape := ⟨2, ![128, 1]⟩
abbrev S128x256x1 : Shape := ⟨3, ![128, 256, 1]⟩
abbrev S4x256x768 : Shape := ⟨3, ![4, 256, 768]⟩
abbrev S4x256x1 : Shape := ⟨3, ![4, 256, 1]⟩

abbrev nBuf : Space → Nat
  | .hbm => 68
  | .vmem => 14
  | .smem => 0
  | _ => 0

abbrev bufTy : (tb : Table) → Fin (tcTables nBuf tb) → BufTy
  | .hbm, ⟨0, _⟩ => ⟨S128x256x768, .f32⟩
  | .hbm, ⟨1, _⟩ => ⟨S128x64, .i32⟩
  | .hbm, ⟨2, _⟩ => ⟨S128x64, .i32⟩
  | .hbm, ⟨3, _⟩ => ⟨S128x64, .i32⟩
  | .hbm, ⟨4, _⟩ => ⟨S128, .f32⟩
  | .hbm, ⟨5, _⟩ => ⟨S128, .f32⟩
  | .hbm, ⟨6, _⟩ => ⟨S256, .i32⟩
  | .hbm, ⟨7, _⟩ => ⟨S1x256x1, .i32⟩
  | .hbm, ⟨8, _⟩ => ⟨S_, .i32⟩
  | .hbm, ⟨9, _⟩ => ⟨S1x256x1, .i32⟩
  | .hbm, ⟨10, _⟩ => ⟨S1x256x1, .i32⟩
  | .hbm, ⟨11, _⟩ => ⟨S128x1x64, .i32⟩
  | .hbm, ⟨12, _⟩ => ⟨S128x256x64, .i32⟩
  | .hbm, ⟨13, _⟩ => ⟨S128x256x64, .i32⟩
  | .hbm, ⟨14, _⟩ => ⟨S128x256x64, .i1⟩
  | .hbm, ⟨15, _⟩ => ⟨S_, .i1⟩
  | .hbm, ⟨16, _⟩ => ⟨S128x256, .i1⟩
  | .hbm, ⟨17, _⟩ => ⟨S1x256x1, .i32⟩
  | .hbm, ⟨18, _⟩ => ⟨S_, .i32⟩
  | .hbm, ⟨19, _⟩ => ⟨S1x256x1, .i32⟩
  | .hbm, ⟨20, _⟩ => ⟨S1x256x1, .i32⟩
  | .hbm, ⟨21, _⟩ => ⟨S128x1x64, .i32⟩
  | .hbm, ⟨22, _⟩ => ⟨S128x256x64, .i32⟩
  | .hbm, ⟨23, _⟩ => ⟨S128x256x64, .i32⟩
  | .hbm, ⟨24, _⟩ => ⟨S128x256x64, .i1⟩
  | .hbm, ⟨25, _⟩ => ⟨S_, .i1⟩
  | .hbm, ⟨26, _⟩ => ⟨S128x256, .i1⟩
  | .hbm, ⟨27, _⟩ => ⟨S1x256x1, .i32⟩
  | .hbm, ⟨28, _⟩ => ⟨S_, .i32⟩
  | .hbm, ⟨29, _⟩ => ⟨S1x256x1, .i32⟩
  | .hbm, ⟨30, _⟩ => ⟨S1x256x1, .i32⟩
  | .hbm, ⟨31, _⟩ => ⟨S128x1x64, .i32⟩
  | .hbm, ⟨32, _⟩ => ⟨S128x256x64, .i32⟩
  | .hbm, ⟨33, _⟩ => ⟨S128x256x64, .i32⟩
  | .hbm, ⟨34, _⟩ => ⟨S128x256x64, .i1⟩
  | .hbm, ⟨35, _⟩ => ⟨S_, .i1⟩
  | .hbm, ⟨36, _⟩ => ⟨S128x256, .i1⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S128x256, .i1⟩
  | .hbm, ⟨42, _⟩ => ⟨S128x256, .i1⟩
  | .hbm, ⟨43, _⟩ => ⟨S128x256, .f32⟩
  | .hbm, ⟨44, _⟩ => ⟨S128x256, .i1⟩
  | .hbm, ⟨45, _⟩ => ⟨S128x256, .i1⟩
  | .hbm, ⟨46, _⟩ => ⟨S128x256, .f32⟩
  | .hbm, ⟨47, _⟩ => ⟨S128x1, .f32⟩
  | .hbm, ⟨48, _⟩ => ⟨S_, .f32⟩
  | .hbm, ⟨49, _⟩ => ⟨S128x256, .f32⟩
  | .hbm, ⟨50, _⟩ => ⟨S128x256, .f32⟩
  | .hbm, ⟨51, _⟩ => ⟨S128x256, .f32⟩
  | .hbm, ⟨52, _⟩ => ⟨S128x1, .f32⟩
  | .hbm, ⟨53, _⟩ => ⟨S128x256, .f32⟩
  | .hbm, ⟨54, _⟩ => ⟨S128x256, .f32⟩
  | .hbm, ⟨55, _⟩ => ⟨S_, .f32⟩
  | .hbm, ⟨56, _⟩ => ⟨S128x256, .f32⟩
  | .hbm, ⟨57, _⟩ => ⟨S128x256, .f32⟩
  | .hbm, ⟨58, _⟩ => ⟨S_, .f32⟩
  | .hbm, ⟨59, _⟩ => ⟨S128x256, .i1⟩
  | .hbm, ⟨60, _⟩ => ⟨S128x256, .f32⟩
  | .hbm, ⟨61, _⟩ => ⟨S128x256, .f32⟩
  | .hbm, ⟨62, _⟩ => ⟨S128x256x1, .f32⟩
  | .hbm, ⟨63, _⟩ => ⟨S128x256x1, .f32⟩
  | .hbm, ⟨64, _⟩ => ⟨S128x256x1, .f32⟩
  | .hbm, ⟨65, _⟩ => ⟨S128x256x768, .f32⟩
  | .hbm, ⟨66, _⟩ => ⟨S128x256x768, .f32⟩
  | .hbm, ⟨67, _⟩ => ⟨S128x256x768, .f32⟩
  | .local _ .vmem, ⟨0, _⟩ => ⟨S4x256x768, .f32⟩
  | .local _ .vmem, ⟨1, _⟩ => ⟨S4x256x768, .f32⟩
  | .local _ .vmem, ⟨2, _⟩ => ⟨S4x256x1, .f32⟩
  | .local _ .vmem, ⟨3, _⟩ => ⟨S4x256x1, .f32⟩
  | .local _ .vmem, ⟨4, _⟩ => ⟨S4x256x1, .f32⟩
  | .local _ .vmem, ⟨5, _⟩ => ⟨S4x256x1, .f32⟩
  | .local _ .vmem, ⟨6, _⟩ => ⟨S4x256x1, .f32⟩
  | .local _ .vmem, ⟨7, _⟩ => ⟨S4x256x1, .f32⟩
  | .local _ .vmem, ⟨8, _⟩ => ⟨S4x256x768, .f32⟩
  | .local _ .vmem, ⟨9, _⟩ => ⟨S4x256x768, .f32⟩
  | .local _ .vmem, ⟨10, _⟩ => ⟨S4x256x768, .f32⟩
  | .local _ .vmem, ⟨11, _⟩ => ⟨S4x256x768, .f32⟩
  | .local _ .vmem, ⟨12, _⟩ => ⟨S4x256x768, .f32⟩
  | .local _ .vmem, ⟨13, _⟩ => ⟨S4x256x768, .f32⟩
  | _, _ => ⟨S128x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_4 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_call0_v0 : Ref sig .tc := ⟨.hbm, 49, rfl⟩
abbrev main_call0_v1 : Ref sig .tc := ⟨.hbm, 50, rfl⟩
abbrev main_v35 : Ref sig .tc := ⟨.hbm, 51, rfl⟩
abbrev main_v36 : Ref sig .tc := ⟨.hbm, 52, rfl⟩
abbrev main_call1_v0 : Ref sig .tc := ⟨.hbm, 53, rfl⟩
abbrev main_v37 : Ref sig .tc := ⟨.hbm, 54, rfl⟩
abbrev main_cst_6 : Ref sig .tc := ⟨.hbm, 55, rfl⟩
abbrev main_call2_v0 : Ref sig .tc := ⟨.hbm, 56, rfl⟩
abbrev main_v38 : Ref sig .tc := ⟨.hbm, 57, rfl⟩
abbrev main_cst_7 : Ref sig .tc := ⟨.hbm, 58, rfl⟩
abbrev main_call3_v0 : Ref sig .tc := ⟨.hbm, 59, rfl⟩
abbrev main_call3_v1 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_v43_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S256_S1x256x1_1 : S256.BroadcastsInDim S1x256x1 (![1] : Fin 1 → Fin S1x256x1.rank)
  bcast_S_S1x256x1 : S_.BroadcastsInDim S1x256x1 (![] : Fin 0 → Fin S1x256x1.rank)
  bcast_S128x64_S128x1x64_0_2 : S128x64.BroadcastsInDim S128x1x64 (![0, 2] : Fin 2 → Fin S128x1x64.rank)
  bcast_S1x256x1_S128x256x64_0_1_2 : S1x256x1.BroadcastsInDim S128x256x64 (![0, 1, 2] : Fin 3 → Fin S128x256x64.rank)
  bcast_S128x1x64_S128x256x64_0_1_2 : S128x1x64.BroadcastsInDim S128x256x64 (![0, 1, 2] : Fin 3 → Fin S128x256x64.rank)
  reducesTo_S128x256x64_S128x256_d2 : S128x256x64.ReducesTo [2] S128x256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S128x256_0_1 : S1x256.BroadcastsInDim S128x256 (![0, 1] : Fin 2 → Fin S128x256.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  inb_S4x256x768_S4x256x768_0_0_0 : ∀ a, (![0, 0, 0] : Fin 3 → Nat) a + S4x256x768.size a ≤ S4x256x768.size a
  h_S4x256x768 : 0 < S4x256x768.numel
  inb_S4x256x1_S4x256x1_0_0_0 : ∀ a, (![0, 0, 0] : Fin 3 → Nat) a + S4x256x1.size a ≤ S4x256x1.size a
  h_S4x256x1 : 0 < S4x256x1.numel
  shapeCasts_S4x256x1_S4x256x1 : S4x256x1.ShapeCasts S4x256x1
  broadcasts_S4x256x1_S4x256x768 : S4x256x1.Broadcasts S4x256x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x768.size a ≤ S128x256x768.size a
  hwx0_0 : ∀ i : grid0.Coords, EltTy.bits .f32 = 32 ∨ (Rect.block (s := S128x256x768) S4x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x1.size a ≤ S128x256x1.size a
  hwx0_1 : ∀ i : grid0.Coords, EltTy.bits .f32 = 32 ∨ (Rect.block (s := S128x256x1) S4x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x1.size a ≤ S128x256x1.size a
  hwx0_2 : ∀ i : grid0.Coords, EltTy.bits .f32 = 32 ∨ (Rect.block (s := S128x256x1) S4x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x256x1.size a ≤ S128x256x1.size a
  hwx0_3 : ∀ i : grid0.Coords, EltTy.bits .f32 = 32 ∨ (Rect.block (s := S128x256x1) S4x256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x768.size a ≤ S128x256x768.size a
  hwx0_4 : ∀ i : grid0.Coords, EltTy.bits .f32 = 32 ∨ (Rect.block (s := S128x256x768) S4x256x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256x768.size a ≤ S128x256x768.size a
  hwx0_5 : ∀ i : grid0.Coords, EltTy.bits .f32 = 32 ∨ (Rect.block (s := S128x256x768) S4x256x768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256x768.size a ≤ S128x256x768.size a
  hwx0_6 : ∀ i : grid0.Coords, EltTy.bits .f32 = 32 ∨ (Rect.block (s := S128x256x768) S4x256x768.size (cc0_transform_6 i) (hinb0_6 i)).WholeWords (EltTy.packing .f32)

variable [Facts₀]

abbrev win0_0 : Pipeline.Window sig grid0 :=
  Pipeline.Window.ofSpec (Memref.whole main_arg0) S4x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S4x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v42) S4x256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v43_0) S4x256x768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v43_1) S4x256x768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43_2) S4x256x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x256x768 : Shape := ⟨3, ![128, 256, 768]⟩
abbrev S128x64 : Shape := ⟨2, ![128, 64]⟩
abbrev S128 : Shape := ⟨1, ![128]⟩
abbrev S256 : Shape := ⟨1, ![256]⟩
abbrev S1x256x1 : Shape := ⟨3, ![1, 256, 1]⟩
abbrev S_ : Shape := ⟨0, ![]⟩
abbrev S128x1x64 : Shape := ⟨3, ![128, 1, 64]⟩
abbrev S128x256x64 : Shape := ⟨3, ![128, 256, 64]⟩
abbrev S128x256 : Shape := ⟨2, ![128, 256]⟩
abbrev S1x256 : Shape := ⟨2, ![1, 256]⟩
abbrev S128x256x1 : Shape := ⟨3, ![128, 256, 1]⟩
abbrev S128x1 : Shape := ⟨2, ![128, 1]⟩

abbrev nBuf : Space → Nat
  | .hbm => 141
  | .vmem => 0
  | .smem => 0
  | _ => 0

abbrev hbmTy0_0 (i : Nat) : BufTy := match i % 128 with
  | 0 => ⟨S128x256x768, .f32⟩
  | 1 => ⟨S128x64, .i32⟩
  | 2 => ⟨S128x64, .i32⟩
  | 3 => ⟨S128x64, .i32⟩
  | 4 => ⟨S128, .f32⟩
  | 5 => ⟨S128, .f32⟩
  | 6 => ⟨S256, .i32⟩
  | 7 => ⟨S1x256x1, .i32⟩
  | 8 => ⟨S_, .i32⟩
  | 9 => ⟨S1x256x1, .i32⟩
  | 10 => ⟨S1x256x1, .i32⟩
  | 11 => ⟨S128x1x64, .i32⟩
  | 12 => ⟨S128x256x64, .i32⟩
  | 13 => ⟨S128x256x64, .i32⟩
  | 14 => ⟨S128x256x64, .i1⟩
  | 15 => ⟨S_, .i1⟩
  | 16 => ⟨S128x256, .i1⟩
  | 17 => ⟨S1x256x1, .i32⟩
  | 18 => ⟨S_, .i32⟩
  | 19 => ⟨S1x256x1, .i32⟩
  | 20 => ⟨S1x256x1, .i32⟩
  | 21 => ⟨S128x1x64, .i32⟩
  | 22 => ⟨S128x256x64, .i32⟩
  | 23 => ⟨S128x256x64, .i32⟩
  | 24 => ⟨S128x256x64, .i1⟩
  | 25 => ⟨S_, .i1⟩
  | 26 => ⟨S128x256, .i1⟩
  | 27 => ⟨S1x256, .i32⟩
  | 28 => ⟨S_, .i32⟩
  | 29 => ⟨S1x256, .i32⟩
  | 30 => ⟨S1x256, .i1⟩
  | 31 => ⟨S128x256, .i1⟩
  | 32 => ⟨S128x256, .i1⟩
  | 33 => ⟨S1x256, .i32⟩
  | 34 => ⟨S_, .i32⟩
  | 35 => ⟨S1x256, .i32⟩
  | 36 => ⟨S1x256, .i1⟩
  | 37 => ⟨S128x256, .i1⟩
  | 38 => ⟨S128x256, .i1⟩
  | 39 => ⟨S128x256x1, .i1⟩
  | 40 => ⟨S128x256x1, .f32⟩
  | 41 => ⟨S128x256x768, .f32⟩
  | 42 => ⟨S128x256x768, .f32⟩
  | 43 => ⟨S128x256x1, .i1⟩
  | 44 => ⟨S128x256x1, .f32⟩
  | 45 => ⟨S128x256x768, .f32⟩
  | 46 => ⟨S128x256x768, .f32⟩
  | 47 => ⟨S256, .i32⟩
  | 48 => ⟨S_, .i32⟩
  | 49 => ⟨S128x64, .i32⟩
  | 50 => ⟨S128x64, .i1⟩
  | 51 => ⟨S_, .i32⟩
  | 52 => ⟨S128x64, .i32⟩
  | 53 => ⟨S128x64, .i32⟩
  | 54 => ⟨S_, .i32⟩
  | 55 => ⟨S128x64, .i32⟩
  | 56 => ⟨S128x64, .i1⟩
  | 57 => ⟨S128x64, .i1⟩
  | 58 => ⟨S1x256x1, .i32⟩
  | 59 => ⟨S_, .i32⟩
  | 60 => ⟨S1x256x1, .i32⟩
  | 61 => ⟨S1x256x1, .i32⟩
  | 62 => ⟨S128x1x64, .i32⟩
  | 63 => ⟨S128x256x64, .i32⟩
  | 64 => ⟨S128x256x64, .i32⟩
  | 65 => ⟨S128x256x64, .i1⟩
  | 66 => ⟨S128x1x64, .i1⟩
  | 67 => ⟨S128x256x64, .i1⟩
  | 68 => ⟨S128x256x64, .i1⟩
  | 69 => ⟨S_, .i1⟩
  | 70 => ⟨S128x256, .i1⟩
  | 71 => ⟨S256, .i32⟩
  | 72 => ⟨S_, .i32⟩
  | 73 => ⟨S128x64, .i32⟩
  | 74 => ⟨S128x64, .i1⟩
  | 75 => ⟨S_, .i32⟩
  | 76 => ⟨S128x64, .i32⟩
  | 77 => ⟨S128x64, .i32⟩
  | 78 => ⟨S_, .i32⟩
  | 79 => ⟨S128x64, .i32⟩
  | 80 => ⟨S128x64, .i1⟩
  | 81 => ⟨S128x64, .i1⟩
  | 82 => ⟨S1x256x1, .i32⟩
  | 83 => ⟨S_, .i32⟩
  | 84 => ⟨S1x256x1, .i32⟩
  | 85 => ⟨S1x256x1, .i32⟩
  | 86 => ⟨S128x1x64, .i32⟩
  | 87 => ⟨S128x256x64, .i32⟩
  | 88 => ⟨S128x256x64, .i32⟩
  | 89 => ⟨S128x256x64, .i1⟩
  | 90 => ⟨S128x1x64, .i1⟩
  | 91 => ⟨S128x256x64, .i1⟩
  | 92 => ⟨S128x256x64, .i1⟩
  | 93 => ⟨S_, .i1⟩
  | 94 => ⟨S128x256, .i1⟩
  | 95 => ⟨S256, .i32⟩
  | 96 => ⟨S_, .i32⟩
  | 97 => ⟨S128x64, .i32⟩
  | 98 => ⟨S128x64, .i1⟩
  | 99 => ⟨S_, .i32⟩
  | 100 => ⟨S128x64, .i32⟩
  | 101 => ⟨S128x64, .i32⟩
  | 102 => ⟨S_, .i32⟩
  | 103 => ⟨S128x64, .i32⟩
  | 104 => ⟨S128x64, .i1⟩
  | 105 => ⟨S128x64, .i1⟩
  | 106 => ⟨S1x256x1, .i32⟩
  | 107 => ⟨S_, .i32⟩
  | 108 => ⟨S1x256x1, .i32⟩
  | 109 => ⟨S1x256x1, .i32⟩
  | 110 => ⟨S128x1x64, .i32⟩
  | 111 => ⟨S128x256x64, .i32⟩
  | 112 => ⟨S128x256x64, .i32⟩
  | 113 => ⟨S128x256x64, .i1⟩
  | 114 => ⟨S128x1x64, .i1⟩
  | 115 => ⟨S128x256x64, .i1⟩
  | 116 => ⟨S128x256x64, .i1⟩
  | 117 => ⟨S_, .i1⟩
  | 118 => ⟨S128x256, .i1⟩
  | 119 => ⟨S128x1, .f32⟩
  | 120 => ⟨S_, .f32⟩
  | 121 => ⟨S128x256, .f32⟩
  | 122 => ⟨S128x256, .f32⟩
  | 123 => ⟨S128x256, .f32⟩
  | 124 => ⟨S128x1, .f32⟩
  | 125 => ⟨S128x256, .f32⟩
  | 126 => ⟨S128x256, .f32⟩
  | 127 => ⟨S_, .f32⟩
  | _ => ⟨S128x256x768, .f32⟩

abbrev hbmTy0_1 (i : Nat) : BufTy := match i % 128 with
  | 0 => ⟨S128x256, .f32⟩
  | 1 => ⟨S128x256, .f32⟩
  | 2 => ⟨S1x256, .i32⟩
  | 3 => ⟨S_, .i32⟩
  | 4 => ⟨S1x256, .i32⟩
  | 5 => ⟨S1x256, .i1⟩
  | 6 => ⟨S_, .f32⟩
  | 7 => ⟨S128x256, .i1⟩
  | 8 => ⟨S128x256, .f32⟩
  | 9 => ⟨S128x256, .f32⟩
  | 10 => ⟨S128x256x1, .f32⟩
  | 11 => ⟨S128x256x768, .f32⟩
  | 12 => ⟨S128x256x768, .f32⟩
  | _ => ⟨S128x256x768, .f32⟩

abbrev hbmTy (i : Nat) : BufTy := match i / 128 with
  | 0 => hbmTy0_0 i
  | 1 => hbmTy0_1 i
  | _ => ⟨S128x256x768, .f32⟩

abbrev bufTy : (tb : Table) → Fin (tcTables nBuf tb) → BufTy
  | .hbm, ⟨i, _⟩ => hbmTy i
  | _, _ => ⟨S128x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_c_10 : Ref sig .tc := ⟨.hbm, 72, rfl⟩
abbrev main_v55 : Ref sig .tc := ⟨.hbm, 73, rfl⟩
abbrev main_v56 : Ref sig .tc := ⟨.hbm, 74, rfl⟩
abbrev main_c_11 : Ref sig .tc := ⟨.hbm, 75, rfl⟩
abbrev main_v57 : Ref sig .tc := ⟨.hbm, 76, rfl⟩
abbrev main_v58 : Ref sig .tc := ⟨.hbm, 77, rfl⟩
abbrev main_c_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_14 : Ref sig .tc := ⟨.hbm, 93, rfl⟩
abbrev main_v72 : Ref sig .tc := ⟨.hbm, 94, rfl⟩
abbrev main_v73 : Ref sig .tc := ⟨.hbm, 95, rfl⟩
abbrev main_c_15 : Ref sig .tc := ⟨.hbm, 96, rfl⟩
abbrev main_v74 : Ref sig .tc := ⟨.hbm, 97, rfl⟩
abbrev main_v75 : Ref sig .tc := ⟨.hbm, 98, rfl⟩
abbrev main_c_16 : Ref sig .tc := ⟨.hbm, 99, rfl⟩
abbrev main_v76 : Ref sig .tc := ⟨.hbm, 100, rfl⟩
abbrev main_v77 : Ref sig .tc := ⟨.hbm, 101, rfl⟩
abbrev main_c_17 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_19 : Ref sig .tc := ⟨.hbm, 117, rfl⟩
abbrev main_v91 : Ref sig .tc := ⟨.hbm, 118, rfl⟩
abbrev main_v92 : Ref sig .tc := ⟨.hbm, 119, rfl⟩
abbrev main_cst : Ref sig .tc := ⟨.hbm, 120, rfl⟩
abbrev main_call0_v0 : Ref sig .tc := ⟨.hbm, 121, rfl⟩
abbrev main_call0_v1 : Ref sig .tc := ⟨.hbm, 122, rfl⟩
abbrev main_v93 : Ref sig .tc := ⟨.hbm, 123, rfl⟩
abbrev main_v94 : Ref sig .tc := ⟨.hbm, 124, rfl⟩
abbrev main_call1_v0 : Ref sig .tc := ⟨.hbm, 125, rfl⟩
abbrev main_v95 : Ref sig .tc := ⟨.hbm, 126, rfl⟩
abbrev main_cst_20 : Ref sig .tc := ⟨.hbm, 127, rfl⟩
abbrev main_call2_v0 : Ref sig .tc := ⟨.hbm, 128, rfl⟩
abbrev main_v96 : Ref sig .tc := ⟨.hbm, 129, rfl⟩
abbrev main_v97 : Ref sig .tc := ⟨.hbm, 130, rfl⟩
abbrev main_c_21 : Ref sig .tc := ⟨.hbm, 131, rfl⟩
abbrev main_v98 : Ref sig .tc := ⟨.hbm, 132, rfl⟩
abbrev main_v99 : Ref sig .tc := ⟨.hbm, 133, rfl⟩
abbrev main_cst_22 : Ref sig .tc := ⟨.hbm, 134, rfl⟩
abbrev main_call3_v0 : Ref sig .tc := ⟨.hbm, 135, rfl⟩
abbrev main_call3_v1 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩

abbrev nD : Nat := 1
abbrev τ : Topo := Topo.v7x

variable {F : FTy → Type} [FloatOps F]

class Facts₀ : Prop where
  bcast_S256_S1x256x1_1 : S256.BroadcastsInDim S1x256x1 (![1] : Fin 1 → Fin S1x256x1.rank)
  bcast_S_S1x256x1 : S_.BroadcastsInDim S1x256x1 (![] : Fin 0 → Fin S1x256x1.rank)
  bcast_S128x64_S128x1x64_0_2 : S128x64.BroadcastsInDim S128x1x64 (![0, 2] : Fin 2 → Fin S128x1x64.rank)
  bcast_S1x256x1_S128x256x64_0_1_2 : S1x256x1.BroadcastsInDim S128x256x64 (![0, 1, 2] : Fin 3 → Fin S128x256x64.rank)
  bcast_S128x1x64_S128x256x64_0_1_2 : S128x1x64.BroadcastsInDim S128x256x64 (![0, 1, 2] : Fin 3 → Fin S128x256x64.rank)
  reducesTo_S128x256x64_S128x256_d2 : S128x256x64.ReducesTo [2] S128x256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S128x256_0_1 : S1x256.BroadcastsInDim S128x256 (![0, 1] : Fin 2 → Fin S128x256.rank)
  bcast_S128x256_S128x256x1_0_1 : S128x256.BroadcastsInDim S128x256x1 (![0, 1] : Fin 2 → Fin S128x256x1.rank)
  bcast_S128x256x1_S128x256x768_0_1_2 : S128x256x1.BroadcastsInDim S128x256x768 (![0, 1, 2] : Fin 3 → Fin S128x256x768.rank)
  bcast_S_S128x64 : S_.BroadcastsInDim S128x64 (![] : Fin 0 → Fin S128x64.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S_S128x256 : S_.BroadcastsInDim S128x256 (![] : Fin 0 → Fin S128x256.rank)

variable [Facts₀]

class Facts : Prop extends Facts₀ where

variable [Facts]
-- ==== Proof.KernelBlocks.lean ====
/-
  From blocks to arrays: each of the kernel's three results is the input array times a column, entry by entry.

  The kernel runs over 32 grid points. At point `t` it loads the block of batch rows `4t … 4t+3` of the input `[128, 256, 768]`
  and of three columns `[128, 256, 1]`, and stores, for each column, the input block times the column's block spread along
  the last axis. The generated value leg states what each point writes back as one function of the loaded blocks (the entry
  `(p, s, h)` of the block is the input block's entry `(p, s, h)` times the column block's entry `(p, s, 0)`). Here:
  that is the block of the whole-array product `scaleCol x k` — `x[b, s, h] · k[b, s, 0]` —, because the three windows'
  blocks at a point sit over the same batch rows; the 32 blocks tile the array; so each result array ends holding
  `scaleCol` of the input and its column as the region finds them.
-/
import proofs.«124746_j71141838291760_1_alg».proof.Proof.Gen.KernelIdeal.Value
import Idealize.ShloMosaic.Lib.Pipeline.Value

noncomputable section

namespace Cert.KernelIdeal.BlockValue

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The column entry `(b, s, 0)` of an entry `(b, s, h)`. -/
abbrev colOf (i : S128x256x768.Idx) : S128x256x1.Idx := fun a => match a with
  | ⟨0, _⟩ => ⟨(i 0).val, (i 0).isLt⟩
  | ⟨1, _⟩ => ⟨(i 1).val, (i 1).isLt⟩
  | ⟨2, _⟩ => ⟨0, Nat.one_pos⟩

/-- Every entry `x[b, s, h]` times the column's entry `k[b, s, 0]`. -/
def scaleCol (x : FVec F S128x256x768 .f32) (k : FVec F S128x256x1 .f32) : FVec F S128x256x768 .f32 :=
  fun i => FloatOps.mulf (x i) (k (colOf i))

theorem zero_offsets : (![0, 0, 0] : Fin 3 → Nat) = fun _ => 0 := funext fun a => by fin_cases a <;> rfl

/-- The input window's block at a point, read at a block index, is the input array read where the block sits. -/
theorem input_block (c : Dev nD) (t : Fin cfg0.N) (y : S4x256x768.Idx) :
    iblk m c 0 t y = V m c main_arg0 (((cfg0.win 0).blk t).view.emb y) := rfl

/-! ## Result 0: every block of the input times the first keep column -/

/-- Input window 1's block at a point, read at a block index, is its column read where the block sits. -/
theorem column_block1 (c : Dev nD) (t : Fin cfg0.N) (y : S4x256x1.Idx) :
    iblk m c 1 t y = V m c main_v40 (((cfg0.win 1).blk t).view.emb y) := rfl

/-- The printed index maps over the 32 grid points: the input's and the column's blocks move with the result's block along
    the batch axis, and every window's block index is zero on the other two axes. -/
theorem index_maps4 : ∀ t : Fin cfg0.N, win0_0.index t (0 : Fin 3) = win0_4.index t (0 : Fin 3)
    ∧ win0_0.index t (1 : Fin 3) = 0 ∧ win0_0.index t (2 : Fin 3) = 0
    ∧ win0_1.index t (0 : Fin 3) = win0_4.index t (0 : Fin 3)
    ∧ win0_1.index t (1 : Fin 3) = 0 ∧ win0_1.index t (2 : Fin 3) = 0
    ∧ win0_4.index t (1 : Fin 3) = 0 ∧ win0_4.index t (2 : Fin 3) = 0 ∧ win0_4.index t (0 : Fin 3) ≤ 31 :=
  (by decide +kernel : ∀ t : Fin grid0.N, _)

/-- At a block index `j` of point `t`: the product of the input's block entry and the column's block entry (the column
    read at `j` with its last coordinate dropped) is the whole-array product at the array index under `j`. Stated for
    arbitrary arrays. -/
theorem block_entry4 (A0 : FVec F S128x256x768 .f32) (A1 : FVec F S128x256x1 .f32) (t : Fin cfg0.N) (j : S4x256x768.Idx) :
    FloatOps.mulf (A0 (((cfg0.win 0).blk t).view.emb (ix4_0 j))) (A1 (((cfg0.win 1).blk t).view.emb (ix4_1 j)))
      = scaleCol A0 A1 (((cfg0.win 4).blk t).view.emb j) := by
  obtain ⟨e0, e1, e2, e3, e4, e5, e6, e7, e8⟩ := index_maps4 t
  have hj0 : (j 0).val < 4 := (j 0).isLt
  have hj1 : (j 1).val < 256 := (j 1).isLt
  have hj2 : (j 2).val < 768 := (j 2).isLt
  have h0 : ((cfg0.win 0).blk t).view.emb (ix4_0 j) = ((cfg0.win 4).blk t).view.emb j := by
    funext a; apply Fin.ext
    match a with
    | ⟨0, _⟩ => show win0_0.index t (0 : Fin 3) * 4 + 1 * (j 0).val = win0_4.index t (0 : Fin 3) * 4 + 1 * (j 0).val; omega
    | ⟨1, _⟩ => show win0_0.index t (1 : Fin 3) * 256 + 1 * (j 1).val = win0_4.index t (1 : Fin 3) * 256 + 1 * (j 1).val; omega
    | ⟨2, _⟩ => show win0_0.index t (2 : Fin 3) * 768 + 1 * (j 2).val = win0_4.index t (2 : Fin 3) * 768 + 1 * (j 2).val; omega
  have h1 : ((cfg0.win 1).blk t).view.emb (ix4_1 j) = colOf (((cfg0.win 4).blk t).view.emb j) := by
    funext a; apply Fin.ext
    match a with
    | ⟨0, _⟩ => show win0_1.index t (0 : Fin 3) * 4 + 1 * (j 0).val = win0_4.index t (0 : Fin 3) * 4 + 1 * (j 0).val; omega
    | ⟨1, _⟩ => show win0_1.index t (1 : Fin 3) * 256 + 1 * (j 1).val = win0_4.index t (1 : Fin 3) * 256 + 1 * (j 1).val; omega
    | ⟨2, _⟩ => show win0_1.index t (2 : Fin 3) * 1 + 1 * 0 = 0; omega
  rw [h0, h1]
  rfl

/-- What point `t` writes back to result 0's array is block `t` of the whole-array product. -/
theorem flushed4_eq (c : Dev nD) (t : Fin cfg0.N) :
    (dats m 0 c).flushed 4 t = ((cfg0.win 4).blk t).view.read (Elt F) (scaleCol (V m c main_arg0) (V m c main_v40)) := by
  show (cfg0.win 4).cut (grid0.coords t) ((dats m 0 c).after 4 t) = _
  rw [after0_4]
  unfold out0_4
  simp only [View.ld_unit_zero (S := S4x256x768) zero_offsets, View.ld_unit_zero (S := S4x256x1) zero_offsets]
  funext j
  refine (canon4_eq (iblk m c 0 t) (iblk m c 1 t) j).trans ?_
  dsimp only [E4]
  rw [input_block, column_block1]
  generalize V m c main_arg0 = A0
  generalize V m c main_v40 = A1
  exact block_entry4 A0 A1 t j

/-- An index of the array is in point `t`'s block iff each coordinate is in the block's range on its axis. -/
theorem mem_block4 (t : Fin cfg0.N) (i : S128x256x768.Idx) :
    i ∈ ((cfg0.win 4).blk t).view.set ↔ ∀ a : Fin 3, win0_4.index t a * S4x256x768.size a ≤ (i a).val
      ∧ (i a).val < win0_4.index t a * S4x256x768.size a + S4x256x768.size a := by
  show i ∈ ((View.whole main_v43_0).slice (win0_4.rect t)).set ↔ _
  rw [View.set_slice_whole, Rect.mem_set_unit]
  exact Iff.rfl

/-- Every group of four batch rows is some point's block. -/
theorem block_of_rows4 : ∀ q : Fin 32, ∃ t : Fin cfg0.N, win0_4.index t = ![q.val, 0, 0] :=
  (by decide +kernel : ∀ q : Fin 32, ∃ t : Fin grid0.N, win0_4.index t = ![q.val, 0, 0])

/-- The blocks cover the array: the entry `(b, s, h)` is in the block of the point with block index `b / 4`. -/
theorem cover4 (i : S128x256x768.Idx) :
    ∃ t : Fin cfg0.N, (cfg0.win 4).flush t = true ∧ i ∈ ((cfg0.win 4).blk t).view.set := by
  have hi0 : (i 0).val < 128 := (i 0).isLt
  have hi1 : (i 1).val < 256 := (i 1).isLt
  have hi2 : (i 2).val < 768 := (i 2).isLt
  obtain ⟨t, ht⟩ := block_of_rows4 ⟨(i 0).val / 4, by omega⟩
  have q0 : win0_4.index t (0 : Fin 3) = (i 0).val / 4 := congrFun ht 0
  have q1 : win0_4.index t (1 : Fin 3) = 0 := congrFun ht 1
  have q2 : win0_4.index t (2 : Fin 3) = 0 := congrFun ht 2
  refine ⟨t, flush0_4 t, ?_⟩
  rw [mem_block4]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 768 ≤ (i 2).val ∧ (i 2).val < win0_4.index t (2 : Fin 3) * 768 + 768; omega

/-- Result 0's array after the run: the input times the column, entry by entry. -/
theorem final4 (c : Dev nD) : (dats m 0 c).arrAt 4 cfg0.N = scaleCol (V m c main_arg0) (V m c main_v40) :=
  (dats m 0 c).arrAt_eq_of_cover 4 (scaleCol (V m c main_arg0) (V m c main_v40)) (fun t _ => flushed4_eq m c t) cover4

/-! ## Result 1: every block of the input times the second keep column -/

/-- Input window 2's block at a point, read at a block index, is its column read where the block sits. -/
theorem column_block2 (c : Dev nD) (t : Fin cfg0.N) (y : S4x256x1.Idx) :
    iblk m c 2 t y = V m c main_v41 (((cfg0.win 2).blk t).view.emb y) := rfl

/-- The printed index maps over the 32 grid points: the input's and the column's blocks move with the result's block along
    the batch axis, and every window's block index is zero on the other two axes. -/
theorem index_maps5 : ∀ t : Fin cfg0.N, win0_0.index t (0 : Fin 3) = win0_5.index t (0 : Fin 3)
    ∧ win0_0.index t (1 : Fin 3) = 0 ∧ win0_0.index t (2 : Fin 3) = 0
    ∧ win0_2.index t (0 : Fin 3) = win0_5.index t (0 : Fin 3)
    ∧ win0_2.index t (1 : Fin 3) = 0 ∧ win0_2.index t (2 : Fin 3) = 0
    ∧ win0_5.index t (1 : Fin 3) = 0 ∧ win0_5.index t (2 : Fin 3) = 0 ∧ win0_5.index t (0 : Fin 3) ≤ 31 :=
  (by decide +kernel : ∀ t : Fin grid0.N, _)

/-- At a block index `j` of point `t`: the product of the input's block entry and the column's block entry (the column
    read at `j` with its last coordinate dropped) is the whole-array product at the array index under `j`. Stated for
    arbitrary arrays. -/
theorem block_entry5 (A0 : FVec F S128x256x768 .f32) (A1 : FVec F S128x256x1 .f32) (t : Fin cfg0.N) (j : S4x256x768.Idx) :
    FloatOps.mulf (A0 (((cfg0.win 0).blk t).view.emb (ix5_0 j))) (A1 (((cfg0.win 2).blk t).view.emb (ix5_1 j)))
      = scaleCol A0 A1 (((cfg0.win 5).blk t).view.emb j) := by
  obtain ⟨e0, e1, e2, e3, e4, e5, e6, e7, e8⟩ := index_maps5 t
  have hj0 : (j 0).val < 4 := (j 0).isLt
  have hj1 : (j 1).val < 256 := (j 1).isLt
  have hj2 : (j 2).val < 768 := (j 2).isLt
  have h0 : ((cfg0.win 0).blk t).view.emb (ix5_0 j) = ((cfg0.win 5).blk t).view.emb j := by
    funext a; apply Fin.ext
    match a with
    | ⟨0, _⟩ => show win0_0.index t (0 : Fin 3) * 4 + 1 * (j 0).val = win0_5.index t (0 : Fin 3) * 4 + 1 * (j 0).val; omega
    | ⟨1, _⟩ => show win0_0.index t (1 : Fin 3) * 256 + 1 * (j 1).val = win0_5.index t (1 : Fin 3) * 256 + 1 * (j 1).val; omega
    | ⟨2, _⟩ => show win0_0.index t (2 : Fin 3) * 768 + 1 * (j 2).val = win0_5.index t (2 : Fin 3) * 768 + 1 * (j 2).val; omega
  have h1 : ((cfg0.win 2).blk t).view.emb (ix5_1 j) = colOf (((cfg0.win 5).blk t).view.emb j) := by
    funext a; apply Fin.ext
    match a with
    | ⟨0, _⟩ => show win0_2.index t (0 : Fin 3) * 4 + 1 * (j 0).val = win0_5.index t (0 : Fin 3) * 4 + 1 * (j 0).val; omega
    | ⟨1, _⟩ => show win0_2.index t (1 : Fin 3) * 256 + 1 * (j 1).val = win0_5.index t (1 : Fin 3) * 256 + 1 * (j 1).val; omega
    | ⟨2, _⟩ => show win0_2.index t (2 : Fin 3) * 1 + 1 * 0 = 0; omega
  rw [h0, h1]
  rfl

/-- What point `t` writes back to result 1's array is block `t` of the whole-array product. -/
theorem flushed5_eq (c : Dev nD) (t : Fin cfg0.N) :
    (dats m 0 c).flushed 5 t = ((cfg0.win 5).blk t).view.read (Elt F) (scaleCol (V m c main_arg0) (V m c main_v41)) := by
  show (cfg0.win 5).cut (grid0.coords t) ((dats m 0 c).after 5 t) = _
  rw [after0_5]
  unfold out0_5
  simp only [View.ld_unit_zero (S := S4x256x768) zero_offsets, View.ld_unit_zero (S := S4x256x1) zero_offsets]
  funext j
  refine (canon5_eq (iblk m c 0 t) (iblk m c 2 t) j).trans ?_
  dsimp only [E5]
  rw [input_block, column_block2]
  generalize V m c main_arg0 = A0
  generalize V m c main_v41 = A1
  exact block_entry5 A0 A1 t j

/-- An index of the array is in point `t`'s block iff each coordinate is in the block's range on its axis. -/
theorem mem_block5 (t : Fin cfg0.N) (i : S128x256x768.Idx) :
    i ∈ ((cfg0.win 5).blk t).view.set ↔ ∀ a : Fin 3, win0_5.index t a * S4x256x768.size a ≤ (i a).val
      ∧ (i a).val < win0_5.index t a * S4x256x768.size a + S4x256x768.size a := by
  show i ∈ ((View.whole main_v43_1).slice (win0_5.rect t)).set ↔ _
  rw [View.set_slice_whole, Rect.mem_set_unit]
  exact Iff.rfl

/-- Every group of four batch rows is some point's block. -/
theorem block_of_rows5 : ∀ q : Fin 32, ∃ t : Fin cfg0.N, win0_5.index t = ![q.val, 0, 0] :=
  (by decide +kernel : ∀ q : Fin 32, ∃ t : Fin grid0.N, win0_5.index t = ![q.val, 0, 0])

/-- The blocks cover the array: the entry `(b, s, h)` is in the block of the point with block index `b / 4`. -/
theorem cover5 (i : S128x256x768.Idx) :
    ∃ t : Fin cfg0.N, (cfg0.win 5).flush t = true ∧ i ∈ ((cfg0.win 5).blk t).view.set := by
  have hi0 : (i 0).val < 128 := (i 0).isLt
  have hi1 : (i 1).val < 256 := (i 1).isLt
  have hi2 : (i 2).val < 768 := (i 2).isLt
  obtain ⟨t, ht⟩ := block_of_rows5 ⟨(i 0).val / 4, by omega⟩
  have q0 : win0_5.index t (0 : Fin 3) = (i 0).val / 4 := congrFun ht 0
  have q1 : win0_5.index t (1 : Fin 3) = 0 := congrFun ht 1
  have q2 : win0_5.index t (2 : Fin 3) = 0 := congrFun ht 2
  refine ⟨t, flush0_5 t, ?_⟩
  rw [mem_block5]
  intro a
  match a with
  | ⟨0, _⟩ => show win0_5.index t (0 : Fin 3) * 4 ≤ (i 0).val ∧ (i 0).val < win0_5.index t (0 : Fin 3) * 4 + 4; omega
  | ⟨1, _⟩ => show win0_5.index t (1 : Fin 3) * 256 ≤ (i 1).val ∧ (i 1).val < win0_5.index t (1 : Fin 3) * 256 + 256; omega
  | ⟨2, _⟩ => show win0_5.index t (2 : Fin 3) * 768 ≤ (i 2).val ∧ (i 2).val < win0_5.index t (2 : Fin 3) * 768 + 768; omega

/-- Result 1's array after the run: the input times the column, entry by entry. -/
theorem final5 (c : Dev nD) : (dats m 0 c).arrAt 5 cfg0.N = scaleCol (V m c main_arg0) (V m c main_v41) :=
  (dats m 0 c).arrAt_eq_of_cover 5 (scaleCol (V m c main_arg0) (V m c main_v41)) (fun t _ => flushed5_eq m c t) cover5

/-! ## Result 2: every block of the input times the weighted multiplier's column -/

/-- Input window 3's block at a point, read at a block index, is its column read where the block sits. -/
theorem column_block3 (c : Dev nD) (t : Fin cfg0.N) (y : S4x256x1.Idx) :
    iblk m c 3 t y = V m c main_v42 (((cfg0.win 3).blk t).view.emb y) := rfl

/-- The printed index maps over the 32 grid points: the input's and the column's blocks move with the result's block along
    the batch axis, and every window's block index is zero on the other two axes. -/
theorem index_maps6 : ∀ t : Fin cfg0.N, win0_0.index t (0 : Fin 3) = win0_6.index t (0 : Fin 3)
    ∧ win0_0.index t (1 : Fin 3) = 0 ∧ win0_0.index t (2 : Fin 3) = 0
    ∧ win0_3.index t (0 : Fin 3) = win0_6.index t (0 : Fin 3)
    ∧ win0_3.index t (1 : Fin 3) = 0 ∧ win0_3.index t (2 : Fin 3) = 0
    ∧ win0_6.index t (1 : Fin 3) = 0 ∧ win0_6.index t (2 : Fin 3) = 0 ∧ win0_6.index t (0 : Fin 3) ≤ 31 :=
  (by decide +kernel : ∀ t : Fin grid0.N, _)

/-- At a block index `j` of point `t`: the product of the input's block entry and the column's block entry (the column
    read at `j` with its last coordinate dropped) is the whole-array product at the array index under `j`. Stated for
    arbitrary arrays. -/
theorem block_entry6 (A0 : FVec F S128x256x768 .f32) (A1 : FVec F S128x256x1 .f32) (t : Fin cfg0.N) (j : S4x256x768.Idx) :
    FloatOps.mulf (A0 (((cfg0.win 0).blk t).view.emb (ix6_0 j))) (A1 (((cfg0.win 3).blk t).view.emb (ix6_1 j)))
      = scaleCol A0 A1 (((cfg0.win 6).blk t).view.emb j) := by
  obtain ⟨e0, e1, e2, e3, e4, e5, e6, e7, e8⟩ := index_maps6 t
  have hj0 : (j 0).val < 4 := (j 0).isLt
  have hj1 : (j 1).val < 256 := (j 1).isLt
  have hj2 : (j 2).val < 768 := (j 2).isLt
  have h0 : ((cfg0.win 0).blk t).view.emb (ix6_0 j) = ((cfg0.win 6).blk t).view.emb j := by
    funext a; apply Fin.ext
    match a with
    | ⟨0, _⟩ => show win0_0.index t (0 : Fin 3) * 4 + 1 * (j 0).val = win0_6.index t (0 : Fin 3) * 4 + 1 * (j 0).val; omega
    | ⟨1, _⟩ => show win0_0.index t (1 : Fin 3) * 256 + 1 * (j 1).val = win0_6.index t (1 : Fin 3) * 256 + 1 * (j 1).val; omega
    | ⟨2, _⟩ => show win0_0.index t (2 : Fin 3) * 768 + 1 * (j 2).val = win0_6.index t (2 : Fin 3) * 768 + 1 * (j 2).val; omega
  have h1 : ((cfg0.win 3).blk t).view.emb (ix6_1 j) = colOf (((cfg0.win 6).blk t).view.emb j) := by
    funext a; apply Fin.ext
    match a with
    | ⟨0, _⟩ => show win0_3.index t (0 : Fin 3) * 4 + 1 * (j 0).val = win0_6.index t (0 : Fin 3) * 4 + 1 * (j 0).val; omega
    | ⟨1, _⟩ => show win0_3.index t (1 : Fin 3) * 256 + 1 * (j 1).val = win0_6.index t (1 : Fin 3) * 256 + 1 * (j 1).val; omega
    | ⟨2, _⟩ => show win0_3.index t (2 : Fin 3) * 1 + 1 * 0 = 0; omega
  rw [h0, h1]
  rfl

/-- What point `t` writes back to result 2's array is block `t` of the whole-array product. -/
theorem flushed6_eq (c : Dev nD) (t : Fin cfg0.N) :
    (dats m 0 c).flushed 6 t = ((cfg0.win 6).blk t).view.read (Elt F) (scaleCol (V m c main_arg0) (V m c main_v42)) := by
  show (cfg0.win 6).cut (grid0.coords t) ((dats m 0 c).after 6 t) = _
  rw [after0_6]
  unfold out0_6
  simp only [View.ld_unit_zero (S := S4x256x768) zero_offsets, View.ld_unit_zero (S := S4x256x1) zero_offsets]
  funext j
  refine (canon6_eq (iblk m c 0 t) (iblk m c 3 t) j).trans ?_
  dsimp only [E6]
  rw [input_block, column_block3]
  generalize V m c main_arg0 = A0
  generalize V m c main_v42 = A1
  exact block_entry6 A0 A1 t j

/-- An index of the array is in point `t`'s block iff each coordinate is in the block's range on its axis. -/
theorem mem_block6 (t : Fin cfg0.N) (i : S128x256x768.Idx) :
    i ∈ ((cfg0.win 6).blk t).view.set ↔ ∀ a : Fin 3, win0_6.index t a * S4x256x768.size a ≤ (i a).val
      ∧ (i a).val < win0_6.index t a * S4x256x768.size a + S4x256x768.size a := by
  show i ∈ ((View.whole main_v43_2).slice (win0_6.rect t)).set ↔ _
  rw [View.set_slice_whole, Rect.mem_set_unit]
  exact Iff.rfl

/-- Every group of four batch rows is some point's block. -/
theorem block_of_rows6 : ∀ q : Fin 32, ∃ t : Fin cfg0.N, win0_6.index t = ![q.val, 0, 0] :=
  (by decide +kernel : ∀ q : Fin 32, ∃ t : Fin grid0.N, win0_6.index t = ![q.val, 0, 0])

/-- The blocks cover the array: the entry `(b, s, h)` is in the block of the point with block index `b / 4`. -/
theorem cover6 (i : S128x256x768.Idx) :
    ∃ t : Fin cfg0.N, (cfg0.win 6).flush t = true ∧ i ∈ ((cfg0.win 6).blk t).view.set := by
  have hi0 : (i 0).val < 128 := (i 0).isLt
  have hi1 : (i 1).val < 256 := (i 1).isLt
  have hi2 : (i 2).val < 768 := (i 2).isLt
  obtain ⟨t, ht⟩ := block_of_rows6 ⟨(i 0).val / 4, by omega⟩
  have q0 : win0_6.index t (0 : Fin 3) = (i 0).val / 4 := congrFun ht 0
  have q1 : win0_6.index t (1 : Fin 3) = 0 := congrFun ht 1
  have q2 : win0_6.index t (2 : Fin 3) = 0 := congrFun ht 2
  refine ⟨t, flush0_6 t, ?_⟩
  rw [mem_block6]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 256 ≤ (i 1).val ∧ (i 1).val < win0_6.index t (1 : Fin 3) * 256 + 256; omega
  | ⟨2, _⟩ => show win0_6.index t (2 : Fin 3) * 768 ≤ (i 2).val ∧ (i 2).val < win0_6.index t (2 : Fin 3) * 768 + 768; omega

/-- Result 2's array after the run: the input times the column, entry by entry. -/
theorem final6 (c : Dev nD) : (dats m 0 c).arrAt 6 cfg0.N = scaleCol (V m c main_arg0) (V m c main_v42) :=
  (dats m 0 c).arrAt_eq_of_cover 6 (scaleCol (V m c main_arg0) (V m c main_v42)) (fun t _ => flushed6_eq m c t) cover6

/-! ## The run -/

/-- The kernel program's run with each result array named: the input (as launched) times the column the host computed. -/
theorem run : θ_run defs (onTc (τ := τ) (main (F := F))) ⟨m, fun _ => 0, ρ⟩ fun r => ∀ c : Dev nD,
      r.2.mem ((c : Thread nD τ).loc main_v43_0) = scaleCol (m ((c : Thread nD τ).loc main_arg0)) (V m c main_v40)
      ∧ r.2.mem ((c : Thread nD τ).loc main_v43_1) = scaleCol (m ((c : Thread nD τ).loc main_arg0)) (V m c main_v41)
      ∧ r.2.mem ((c : Thread nD τ).loc main_v43_2) = scaleCol (m ((c : Thread nD τ).loc main_arg0)) (V m c main_v42)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨(h c).1.trans ((final4 m c).trans (by rw [V_main_arg0])),
       (h c).2.1.trans ((final5 m c).trans (by rw [V_main_arg0])),
       (h c).2.2.1.trans ((final6 m c).trans (by rw [V_main_arg0])),
       (h c).2.2.2⟩)
    (run_blocks m ρ)

end Cert.KernelIdeal.BlockValue

end
-- ==== Proof.Masks.lean ====
/-
  The per-position multipliers, as whole arrays of the index lists and the two weight vectors.

  For a batch row `b` and a sequence position `s` of an `[128, 256]` grid:
  * `first` is the bit "`s = 0`" (the first position, always kept);
  * `hitAny d` is the bit "some entry `d[b, k]`, `k < 64`, of the index list equals `s - 1`", an OR over `k` of the
    bits `hits d`;
  * `keep d = first | hitAny d` is the keep mask of a dependency list;
  * `weights M₁ M₂ M₃ w₁ w₂` is the multiplier built from three membership masks by successive selections: `w₁[b]` where
    `M₁`, overwritten by `w₂[b]` where `M₂`, zeroed where `M₃`, and `1` at the first position.
  `scaleRows x q` multiplies every entry `x[b, s, h]` by the multiplier `q[b, s]` of its row.

  The one mathematical fact of this file (`weights_congr`): the multiplier depends on the three masks only AWAY from the
  first position, because there the last selection returns `1` whatever the masks hold.
-/
import proofs.«124746_j71141838291760_1_alg».proof.KernelIdeal

noncomputable section

namespace Cert.Masked

open Idealize.ShloMosaic Cert.KernelIdeal Cert.KernelIdeal.Facts₀

variable {F : FTy → Type} [FloatOps F]
variable [Cert.KernelIdeal.Facts]

/-- The bit "`s = 0`" over the `[128, 256]` grid: the position counter compared with zero, spread over the rows. -/
def first : IVec S128x256 1 :=
  broadcastInDim S128x256 ![0, 1] bcast_S1x256_S128x256_0_1
    (cmpi .eq (broadcastInDim S1x256 ![1] bcast_S256_S1x256_1 (iotaInDim S256 32 0))
      (broadcastInDim S1x256 ![] bcast_S_S1x256 (constantI S_ 32 0#32)))

/-- The bit "`d[b, k] = s - 1`" at `(b, s, k)`. -/
def hits (d : IVec S128x64 32) : IVec S128x256x64 1 :=
  cmpi .eq
    (broadcastInDim S128x256x64 ![0, 1, 2] bcast_S1x256x1_S128x256x64_0_1_2
      (subi (broadcastInDim S1x256x1 ![1] bcast_S256_S1x256x1_1 (iotaInDim S256 32 0))
        (broadcastInDim S1x256x1 ![] bcast_S_S1x256x1 (constantI S_ 32 1#32))))
    (broadcastInDim S128x256x64 ![0, 1, 2] bcast_S128x1x64_S128x256x64_0_1_2
      (broadcastInDim S128x1x64 ![0, 2] bcast_S128x64_S128x1x64_0_2 d))

/-- The bit "`s - 1` occurs in the list `d[b, ·]`": the OR of `hits d` along the list. -/
def hitAny (d : IVec S128x64 32) : IVec S128x256 1 :=
  Host.reduce IntOp.ori (hits d) (constantI S_ 1 0#1) reducesTo_S128x256x64_S128x256_d2 h_S_

/-- The keep mask of a dependency list: the first position, or a position whose predecessor is listed. -/
def keep (d : IVec S128x64 32) : IVec S128x256 1 := ori first (hitAny d)

/-- A weight vector `[128]` spread over the positions: `w[b]` at `(b, s)`. -/
def perRow (w : FVec F S128 .f32) : FVec F S128x256 .f32 :=
  broadcastInDim S128x256 ![0, 1] bcast_S128x1_S128x256_0_1 (broadcastInDim S128x1 ![0] bcast_S128_S128x1_0 w)

/-- A float constant spread over the `[128, 256]` grid. -/
def splat (b : BitVec 32) : FVec F S128x256 .f32 :=
  broadcastInDim S128x256 ![] bcast_S_S128x256 (constant S_ .f32 b)

/-- The multiplier of the weighted output from three membership masks: `w₁` where `M₁`, then `w₂` where `M₂`, then `0`
    where `M₃`, then `1` at the first position. -/
def weights (M₁ M₂ M₃ : IVec S128x256 1) (w₁ w₂ : FVec F S128 .f32) : FVec F S128x256 .f32 :=
  select first (splat 0x3F800000#32)
    (select M₃ (splat 0x00000000#32)
      (select M₂ (perRow w₂)
        (select M₁ (perRow w₁) (splat 0x00000000#32))))

/-- The row `(b, s)` of an entry `(b, s, h)`. -/
abbrev rowOf (i : S128x256x768.Idx) : S128x256.Idx := fun a => match a with
  | ⟨0, _⟩ => ⟨(i 0).val, (i 0).isLt⟩
  | ⟨1, _⟩ => ⟨(i 1).val, (i 1).isLt⟩

/-- Every entry `x[b, s, h]` times the multiplier `q[b, s]` of its row. -/
def scaleRows (x : FVec F S128x256x768 .f32) (q : FVec F S128x256 .f32) : FVec F S128x256x768 .f32 :=
  fun i => FloatOps.mulf (x i) (q (rowOf i))

/-- The multiplier reads the three masks only away from the first position: masks that agree wherever `first` is not
    set give the same multiplier. -/
theorem weights_congr (M₁ M₂ M₃ N₁ N₂ N₃ : IVec S128x256 1) (w₁ w₂ : FVec F S128 .f32)
    (h : ∀ j : S128x256.Idx, first j = 1#1 ∨ (M₁ j = N₁ j ∧ M₂ j = N₂ j ∧ M₃ j = N₃ j)) :
    weights M₁ M₂ M₃ w₁ w₂ = weights N₁ N₂ N₃ w₁ w₂ := by
  funext j
  rcases h j with h1 | ⟨e1, e2, e3⟩
  · show Scalar.select (first j) _ _ = Scalar.select (first j) _ _
    rw [h1]
    rfl
  · show Scalar.select (first j) _ (Scalar.select (M₃ j) _ (Scalar.select (M₂ j) _ (Scalar.select (M₁ j) _ _)))
      = Scalar.select (first j) _ (Scalar.select (N₃ j) _ (Scalar.select (N₂ j) _ (Scalar.select (N₁ j) _ _)))
    rw [e1, e2, e3]

end Cert.Masked

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.KernelHost.lean ====
/-
  The three multiplier columns the kernel is launched on, as functions of the program's arguments.

  Before the region the program computes, on the host, three `[128, 256, 1]` columns: the keep masks of the two dependency
  lists converted to floats, and the weighted multiplier. Each is the `[128, 256]` array of `Masks.lean` with a unit axis
  appended. The third column goes through four selections the program runs as called functions; a value handed to a
  called function is carried along the equation "the buffer's type is the value's type" and carried back when read: the two
  transports cancel, and a single one along a literal reference's own type is the identity.
-/
import proofs.«124746_j71141838291760_1_alg».proof.Proof.Gen.KernelIdeal.Frame
import proofs.«124746_j71141838291760_1_alg».proof.Proof.Masks
import proofs.«124746_j71141838291760_1_alg».proof.Proof.LibHostCalls
import Idealize.ShloMosaic.Lib.StableHlo.Run

noncomputable section

namespace Cert.KernelIdeal.HostValue

open Cert.KernelIdeal Cert.KernelIdeal.Gen Cert.Masked Idealize.ShloMosaic Idealize.ShloMosaic.TcCoe Idealize.SL.Sem
open Idealize.ShloMosaic.StableHlo

variable {F : FTy → Type} [FloatOps F]
variable (m : (ℓ : Loc nD τ sig) → Buf (Elt F) ℓ)

/-- A `[128, 256]` array with a unit axis appended. -/
def column (q : FVec F S128x256 .f32) : FVec F S128x256x1 .f32 :=
  broadcastInDim S128x256x1 ![0, 1] Facts₀.bcast_S128x256_S128x256x1_0_1 q

set_option maxRecDepth 100000 in
/-- The first column: the keep mask of the first dependency list, as floats. -/
theorem V_main_v40 (c : Dev nD) :
    (V m c main_v40 : S128x256x1.Idx → Elt F .f32)
      = column (uitofp .f32 (keep (m ((c : Thread nD τ).loc main_arg1)))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxRecDepth 100000 in
/-- The second column: the keep mask of the second dependency list, as floats. -/
theorem V_main_v41 (c : Dev nD) :
    (V m c main_v41 : S128x256x1.Idx → Elt F .f32)
      = column (uitofp .f32 (keep (m ((c : Thread nD τ).loc main_arg2)))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  rfl

set_option maxRecDepth 100000 in
/-- The third column: the weighted multiplier, from the plain membership masks of the three lists and the two weight
    vectors. -/
theorem V_main_v42 (c : Dev nD) :
    (V m c main_v42 : S128x256x1.Idx → Elt F .f32)
      = column (weights (hitAny (m ((c : Thread nD τ).loc main_arg1))) (hitAny (m ((c : Thread nD τ).loc main_arg2)))
          (hitAny (m ((c : Thread nD τ).loc main_arg3))) (m ((c : Thread nD τ).loc main_arg4)) (m ((c : Thread nD τ).loc main_arg5))) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results_simp
  simp only [Cert.Lib.HostCalls.ofBuf_toBuf]
  simp only [TRef.ofBuf, TRef.toBuf, cast_eq]
  rfl

end Cert.KernelIdeal.HostValue

end
-- ==== Proof.KernelValue.lean ====
/-
  The kernel program's three results as rows scaled by the multipliers of `Masks.lean`.

  Each result array is the input times a column `[128, 256, 1]` (`KernelBlocks.lean`), and each column is a `[128, 256]`
  multiplier with a unit axis appended (`KernelHost.lean`). Reading the column at `(b, s, 0)` reads the multiplier at
  `(b, s)`, so each result is `scaleRows` of the input and the multiplier.
-/
import proofs.«124746_j71141838291760_1_alg».proof.Proof.KernelBlocks
import proofs.«124746_j71141838291760_1_alg».proof.Proof.KernelHost

noncomputable section

namespace Cert.KernelIdeal.KernelValue

open Cert.KernelIdeal Cert.KernelIdeal.Gen Cert.Masked Cert.KernelIdeal.BlockValue Cert.KernelIdeal.HostValue
open Idealize.ShloMosaic Idealize.ShloMosaic.TcCoe Idealize.SL.Sem

variable {F : FTy → Type} [FloatOps F]
variable (m : (ℓ : Loc nD τ sig) → Buf (Elt F) ℓ) (ρ : Dev nD → PrngReg)

/-- Scaling by a multiplier's column is scaling the rows by the multiplier. -/
theorem scaleCol_column (x : FVec F S128x256x768 .f32) (q : FVec F S128x256 .f32) :
    scaleCol x (column q) = scaleRows x q := by
  funext i
  show FloatOps.mulf (x i) (column q (colOf i)) = FloatOps.mulf (x i) (q (rowOf i))
  refine congrArg (FloatOps.mulf (x i)) ?_
  unfold column
  exact broadcastInDim_apply _ _ q (colOf i) (rowOf i) (fun a => match a with
    | ⟨0, _⟩ => by show (i 0).val = if (128 : Nat) = 1 then 0 else (i 0).val; rw [if_neg (by decide)]
    | ⟨1, _⟩ => by show (i 1).val = if (256 : Nat) = 1 then 0 else (i 1).val; rw [if_neg (by decide)])

/-- The kernel program's run: the two keep-masked copies of the input and the weighted copy, the arguments unchanged. -/
theorem run : θ_run defs (onTc (τ := τ) (main (F := F))) ⟨m, fun _ => 0, ρ⟩ fun r => ∀ c : Dev nD,
      r.2.mem ((c : Thread nD τ).loc main_v43_0)
        = scaleRows (m ((c : Thread nD τ).loc main_arg0)) (uitofp .f32 (keep (m ((c : Thread nD τ).loc main_arg1))))
      ∧ r.2.mem ((c : Thread nD τ).loc main_v43_1)
        = scaleRows (m ((c : Thread nD τ).loc main_arg0)) (uitofp .f32 (keep (m ((c : Thread nD τ).loc main_arg2))))
      ∧ r.2.mem ((c : Thread nD τ).loc main_v43_2)
        = scaleRows (m ((c : Thread nD τ).loc main_arg0))
            (weights (hitAny (m ((c : Thread nD τ).loc main_arg1))) (hitAny (m ((c : Thread nD τ).loc main_arg2)))
              (hitAny (m ((c : Thread nD τ).loc main_arg3))) (m ((c : Thread nD τ).loc main_arg4))
              (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨(h c).1.trans (by rw [V_main_v40, scaleCol_column]),
       (h c).2.1.trans (by rw [V_main_v41, scaleCol_column]),
       (h c).2.2.1.trans (by rw [V_main_v42, scaleCol_column]),
       (h c).2.2.2⟩)
    (BlockValue.run m ρ)

end Cert.KernelIdeal.KernelValue

end
-- ==== Proof.LibReduceFibre.lean ====
/-
  A host reduction reads, at a result index, only the operand's entries on that index's fibre.

  `Host.reduce f x init` at the result index `j` is the left fold of `f`, from the initial value, over the operand indices
  whose coordinates on the kept axes are `j` (the indices that DROP to `j`). Two operands that agree on that fibre therefore
  give the same result at `j`, whatever they hold elsewhere and whatever `f` is: no commutativity, associativity or neutral
  element is needed, because both folds run over the same indices in the same order.
-/
import Idealize.ShloMosaic.PureOps.Reduce

namespace Cert.ReduceFibre

open Idealize.ShloMosaic

variable {α : Type} {s t u : Shape} {axes : List (Fin s.rank)}

/-- Two operands equal on the fibre of `j` (every index that drops to `j`) have the same host reduction at `j`. -/
theorem reduce_congr_fibre (f : α → α → α) (x x' : s.Idx → α) (init : u.Idx → α) (h : s.ReducesTo axes t)
    (hu : 0 < u.numel) (j : t.Idx) (hx : ∀ i : s.Idx, h.drop i = j → x i = x' i) :
    Host.reduce f x init h hu j = Host.reduce f x' init h hu j := by
  rw [Host.reduce_eq_foldl, Host.reduce_eq_foldl]
  refine List.foldl_ext _ _ _ (fun r i hi => ?_)
  rw [hx i (of_decide_eq_true (List.mem_filter.mp hi).2)]

end Cert.ReduceFibre
-- ==== Proof.IndexWord.lean ====
/-
  The validity test of the reference's membership mask is implied by a hit at a position past the first.

  For a sequence position `s` with `1 ≤ s ≤ 255` the compared word is `s - 1`, a number in `[0, 254]`. An index word `D`
  equal to it is therefore neither the padding word `-1` (all ones) nor does `D + 1 = s` reach `256` as a signed number;
  so "hit and valid" is "hit". When `D` is not that word both sides are the zero bit.
-/
import Idealize.ShloMosaic.PureOps

namespace Cert.Masked

open Idealize.ShloMosaic

/-- At a position `1 ≤ s ≤ 255`: the hit bit `(s - 1 == D)` ANDed with the validity bits `(D != -1)` and `(D + 1 <ₛ 256)`
    is the hit bit. -/
theorem hit_and_valid (s : Nat) (hs0 : s ≠ 0) (hs : s < 256) (D : BitVec 32) :
    IntOp.andi (IntOp.cmpi .eq (IntOp.subi (BitVec.ofNat 32 s) 1#32) D)
      (IntOp.andi (IntOp.cmpi .ne D 4294967295#32) (IntOp.cmpi .slt (IntOp.addi D 1#32) 256#32))
    = IntOp.cmpi .eq (IntOp.subi (BitVec.ofNat 32 s) 1#32) D := by
  by_cases h : BitVec.ofNat 32 s - 1#32 = D
  · subst h
    have hne : (BitVec.ofNat 32 s - 1#32 != 4294967295#32) = true := by
      rw [bne_iff_ne]
      intro e
      have := congrArg BitVec.toNat e
      simp only [BitVec.toNat_sub, BitVec.toNat_ofNat] at this
      omega
    have hadd : BitVec.ofNat 32 s - 1#32 + 1#32 = BitVec.ofNat 32 s := BitVec.sub_add_cancel _ _
    have hlt : (BitVec.ofNat 32 s).slt 256#32 = true := by
      simp only [BitVec.slt, decide_eq_true_eq, BitVec.toInt, BitVec.toNat_ofNat]
      omega
    simp only [IntOp.andi, IntOp.cmpi, IntOp.subi, IntOp.addi, hne, hadd, hlt, beq_self_eq_true]
    decide
  · have hb : (BitVec.ofNat 32 s - 1#32 == D) = false := by
      rw [beq_eq_false_iff_ne]; exact h
    simp only [IntOp.andi, IntOp.cmpi, IntOp.subi, hb]
    simp

end Cert.Masked
-- ==== Proof.RefMasks.lean ====
/-
  The reference's three results as rows scaled by the multipliers of `Masks.lean`.

  The reference computes its keep masks with the same operations as the kernel's host part, so its first two results are
  the input scaled by `keep d` as floats. For the weighted result it masks every hit with a validity bit of the list entry
  (`d ≠ -1` and `d + 1 < 256`) before the OR over the list. Away from the first position that changes nothing: a hit at a
  position `s ≥ 1` says `d = s - 1`, a number in `[0, 254]`, which is valid (`IndexWord.lean`); and at the first position
  the last selection returns `1` whatever the masks hold (`Masks.weights_congr`). So the reference's multiplier is
  `weights` of the plain membership masks.
-/
import proofs.«124746_j71141838291760_1_alg».proof.Proof.RefRead
import proofs.«124746_j71141838291760_1_alg».proof.Proof.Gen.KernelIdeal
import Idealize.ShloMosaic.PureOps.Ideal
import proofs.«124746_j71141838291760_1_alg».proof.Proof.Masks
import proofs.«124746_j71141838291760_1_alg».proof.Proof.LibReduceFibre
import proofs.«124746_j71141838291760_1_alg».proof.Proof.IndexWord

noncomputable section

namespace Cert.ReferenceIdeal.RefValue

open Cert.ReferenceIdeal.ReadP Cert.Masked Idealize.ShloMosaic
open Cert.KernelIdeal (S128x256x768 S128x256x64 S128x256x1 S128x256 S128x64 S128)

variable {F : FTy → Type} [FloatOps F]

/-! ## The reference's masks are the masks of `Masks.lean` -/

theorem first_eq : (val_main_call3_v0 (F := F) : IVec S128x256 1) = first := rfl

theorem first_eq' : (val_main_v20 (F := F) : IVec S128x256 1) = first := rfl

theorem keep_eq (d : IVec S128x64 32) : (val_main_v21 (F := F) d : IVec S128x256 1) = keep d := rfl

theorem keep_eq' (d : IVec S128x64 32) : (val_main_v26 (F := F) d : IVec S128x256 1) = keep d := rfl

theorem hitAny_eq (d : IVec S128x64 32) : (val_main_v8 (F := F) d : IVec S128x256 1) = hitAny d := rfl

/-- The first-position bit is set at the first position. -/
theorem first_at_zero (j : S128x256.Idx) (hj : (j 1).val = 0) : first j = 1#1 := by
  rw [← first_eq' (F := Ideal), val_main_v20_apply, val_main_v19_apply, val_main_v17_apply, val_main_v0_apply, val_main_v18_apply,
    val_main_c_3_apply]
  show IntOp.cmpi .eq (BitVec.ofNat 32 (j 1).val) 0#32 = 1#1
  rw [hj]
  rfl

/-- Away from the first position the reference's membership mask (hits ANDed with the entry's validity) is the plain
    membership mask: the two reductions read, on the row `(b, s, ·)`, equal bits. -/
theorem maskedAny_eq (d : IVec S128x64 32) (j : S128x256.Idx) (hj : (j 1).val ≠ 0) :
    val_main_v53 (F := F) d j = hitAny d j := by
  rw [← hitAny_eq (F := F)]
  refine Cert.ReduceFibre.reduce_congr_fibre IntOp.ori (val_main_v52 (F := F) d) (val_main_v7 (F := F) d) _ _ _ j (fun i hi => ?_)
  have hs : (i 1).val = (j 1).val := by
    rw [← hi]
    exact (Shape.ReducesTo.drop_apply_val_of_eq _ i 1 1).symm
  rw [val_main_v52_apply, val_main_v49_apply, val_main_v47_apply, val_main_v45_apply, val_main_v43_apply, val_main_v35_apply,
    val_main_v44_apply, val_main_c_8_apply, val_main_v48_apply, val_main_v46_apply, val_main_v51_apply, val_main_v50_apply,
    val_main_v42_apply, val_main_v37_apply, val_main_v36_apply, val_main_c_5_apply, val_main_v41_apply, val_main_v39_apply,
    val_main_v38_apply, val_main_c_6_apply, val_main_v40_apply, val_main_c_7_apply,
    val_main_v7_apply, val_main_v5_apply, val_main_v3_apply, val_main_v1_apply, val_main_v0_apply, val_main_v2_apply,
    val_main_c_apply, val_main_v6_apply, val_main_v4_apply]
  exact hit_and_valid (i 1).val (by omega) (i 1).isLt _

/-- The reference's multiplier is `weights` of the plain membership masks of the three lists. -/
theorem weights_eq (d1 d2 d3 : IVec S128x64 32) (w4 w5 : FVec F S128 .f32) :
    (val_main_v100 (F := F) d1 d2 d3 w4 w5 : FVec F S128x256 .f32) = weights (hitAny d1) (hitAny d2) (hitAny d3) w4 w5 := by
  have e : (val_main_v100 (F := F) d1 d2 d3 w4 w5 : FVec F S128x256 .f32)
      = weights (val_main_v53 (F := F) d1) (val_main_v53 (F := F) d2) (val_main_v53 (F := F) d3) w4 w5 := rfl
  rw [e]
  refine weights_congr _ _ _ _ _ _ w4 w5 (fun j => ?_)
  by_cases hj : (j 1).val = 0
  · exact Or.inl (first_at_zero j hj)
  · exact Or.inr ⟨maskedAny_eq d1 j hj, maskedAny_eq d2 j hj, maskedAny_eq d3 j hj⟩

/-! ## The three results -/

/-- The row of an entry, as the reference's two trailing broadcasts compute it. -/
theorem row_keep (i : S128x256x768.Idx) : idx_main_v27 (idx_main_v29 i) = rowOf i := by
  funext a; apply Fin.ext
  match a with
  | ⟨0, _⟩ => rfl
  | ⟨1, _⟩ => rfl

/-- The first result: the input scaled by the first list's keep mask. -/
theorem out0_eq (x : FVec F S128x256x768 .f32) (d : IVec S128x64 32) :
    (val_main_v30 (F := F) x d : FVec F S128x256x768 .f32) = scaleRows x (uitofp .f32 (keep d)) := by
  funext i
  rw [val_main_v30_apply, val_main_v29_apply, val_main_v28_apply, val_main_v27_apply, keep_eq, row_keep]
  rfl

/-- The second result: the input scaled by the second list's keep mask. -/
theorem out1_eq (x : FVec F S128x256x768 .f32) (d : IVec S128x64 32) :
    (val_main_v34 (F := F) x d : FVec F S128x256x768 .f32) = scaleRows x (uitofp .f32 (keep d)) := by
  funext i
  rw [val_main_v34_apply, val_main_v33_apply, val_main_v32_apply, val_main_v31_apply, keep_eq']
  show FloatOps.mulf (x i) (FloatOps.uitofp .f32 (keep d (idx_main_v27 (idx_main_v29 i)))) = _
  rw [row_keep]
  rfl

/-- The third result: the input scaled by the weighted multiplier. -/
theorem out2_eq (x : FVec F S128x256x768 .f32) (d1 d2 d3 : IVec S128x64 32) (w4 w5 : FVec F S128 .f32) :
    (val_main_v103 (F := F) x d1 d2 d3 w4 w5 : FVec F S128x256x768 .f32)
      = scaleRows x (weights (hitAny d1) (hitAny d2) (hitAny d3) w4 w5) := by
  funext i
  rw [val_main_v103_apply, val_main_v102_apply, val_main_v101_apply, weights_eq]
  show FloatOps.mulf (x i) (weights (hitAny d1) (hitAny d2) (hitAny d3) w4 w5 (idx_main_v27 (idx_main_v29 i))) = _
  rw [row_keep]
  rfl

end Cert.ReferenceIdeal.RefValue

end
-- ==== Proof.lean ====
/-
  Three masked copies of a `[128, 256, 768]` array: a tiled kernel against plain array code.

  Both programs take an array `x`, three index lists `d₁, d₂, d₃ : [128, 64]` and two weight vectors `w₁, w₂ : [128]`, and
  return `x` with every row `(b, s)` scaled by a multiplier: the keep mask of `d₁`, the keep mask of `d₂` (the first position,
  or a position `s` with `s - 1` listed), and a weighted multiplier (`w₁[b]` where `s - 1` is in `d₁`, overwritten by `w₂[b]`
  where it is in `d₂`, zeroed where it is in `d₃`, and `1` at the first position). The kernel program computes the three
  multipliers on the host as columns and multiplies block by block on the device; the reference multiplies whole arrays,
  and for the weighted multiplier tests list membership only among the valid entries of a list.

  The two agree entry by entry for every input, with no use of the precondition: the products are the same products of
  the same factors, and the validity test cannot change a membership bit away from the first position (a hit at `s ≥ 1`
  is a list entry in `[0, 254]`), while at the first position the multiplier is `1` on both sides.

  * `Masks.lean` — the multipliers as whole arrays, `scaleRows`, and the fact that the weighted multiplier ignores its
    masks at the first position;
  * `KernelBlocks.lean`, `KernelHost.lean`, `KernelValue.lean` — the kernel program's results are `scaleRows` of them;
  * `IndexWord.lean`, `LibReduceFibre.lean`, `RefMasks.lean` — so are the reference's;
  * here: the three frames, and the two runs side by side.
-/
import proofs.«124746_j71141838291760_1_alg».proof.Defs
import proofs.«124746_j71141838291760_1_alg».proof.Proof.Gen.Kernel
import proofs.«124746_j71141838291760_1_alg».proof.Proof.Gen.Kernel.Skeleton
import proofs.«124746_j71141838291760_1_alg».proof.Proof.Gen.Kernel.Launch
import proofs.«124746_j71141838291760_1_alg».proof.Proof.Gen.Kernel.Points
import proofs.«124746_j71141838291760_1_alg».proof.Proof.Gen.Kernel.Frame
import proofs.«124746_j71141838291760_1_alg».proof.Proof.Gen.KernelIdeal
import proofs.«124746_j71141838291760_1_alg».proof.Proof.Gen.KernelIdeal.Skeleton
import proofs.«124746_j71141838291760_1_alg».proof.Proof.Gen.KernelIdeal.Launch
import proofs.«124746_j71141838291760_1_alg».proof.Proof.Gen.KernelIdeal.Points
import proofs.«124746_j71141838291760_1_alg».proof.Proof.Gen.KernelIdeal.Frame
import proofs.«124746_j71141838291760_1_alg».proof.Proof.Gen.KernelIdeal.Value
import proofs.«124746_j71141838291760_1_alg».proof.Proof.Gen.ReferenceIdeal
import proofs.«124746_j71141838291760_1_alg».proof.Proof.Gen.Pre_finite_inputs
import proofs.«124746_j71141838291760_1_alg».proof.Proof.KernelValue
import proofs.«124746_j71141838291760_1_alg».proof.Proof.RefMasks
import Idealize.ShloMosaic.Adequacy
import Idealize.ShloMosaic.Init

noncomputable section

namespace Cert.Proof

open Idealize.ShloMosaic Idealize.ShloMosaic.TcCoe Idealize.SL.Sem Cert.Masked

/-- The word-level kernel program runs, faults nowhere and leaves its arguments as they were. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the results forgotten. -/
theorem frame_referenceIdeal : Cert.frame_ReferenceIdeal := fun m ρ _ =>
  (θ_run Cert.ReferenceIdeal.defs _ _).mono (fun _ h c => (h c).2.2.2) (Cert.ReferenceIdeal.ValueP.run (F := Ideal) m ρ)

/-- The ideal pass rewrote nothing in the kernel. -/
theorem preserves : Cert.preserves_Kernel_KernelIdeal := trivial

/-- From memories that agree on the arguments both programs end with the three results at the same rows-scaled arrays. -/
theorem algebraic : Cert.algebraic_KernelIdeal_ReferenceIdeal := by
  intro m ρ m' ρ' _ hagree
  refine ⟨_, _, _, Cert.KernelIdeal.KernelValue.run (F := Ideal) m ρ, ?_⟩
  refine (θ_run Cert.ReferenceIdeal.defs _ _).mono (fun _ h c => ⟨?_, ?_, ?_, (h c).2.2.2⟩)
    (Cert.ReferenceIdeal.ValueP.run (F := Ideal) m' ρ')
  · rw [(h c).1, Cert.ReferenceIdeal.ReadP.val_main_v30_eq, Cert.ReferenceIdeal.RefValue.out0_eq, (hagree c).1, (hagree c).2.1]
  · rw [(h c).2.1, Cert.ReferenceIdeal.ReadP.val_main_v34_eq, Cert.ReferenceIdeal.RefValue.out1_eq, (hagree c).1, (hagree c).2.2.1]
  · rw [(h c).2.2.1, Cert.ReferenceIdeal.ReadP.val_main_v103_eq, Cert.ReferenceIdeal.RefValue.out2_eq, (hagree c).1, (hagree c).2.1,
      (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
